-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x3 .f32) (main_arg11 : FVec F S3 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x3 .f32 := Host.absf main_arg10
  let main_cst_16 : FVec F S_ .f32 := constant S_ .f32 0x7F800000#32
  let main_v45 : FVec F S64x3 .f32 := broadcastInDim S64x3 ![] bcast_S_S64x3 main_cst_16
  let main_v46 : IVec S64x3 1 := cmpf .olt main_v44 main_v45
  let main_c_17 : IVec S_ 1 := constantI S_ 1 1#1
  let main_v47 : IVec S_ 1 := (fun x v => Host.reduce IntOp.andi x v reducesTo_S64x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x3 .f32) (main_arg11 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x32 .f32) (main_arg1 : IVec S2x1600000 32) (main_arg2 : FVec F S32x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x3 .f32) (main_arg11 : FVec F S3 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S1600000x64 : Shape := ⟨2, ![1600000, 64]⟩
abbrev S1x3 : Shape := ⟨2, ![1, 3]⟩
abbrev S100000x3 : Shape := ⟨2, ![100000, 3]⟩
abbrev S5000x3 : Shape := ⟨2, ![5000, 3]⟩

abbrev nBuf : Space → Nat
  | .hbm => 53
  | .vmem => 22
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x3, .f32⟩
  | .hbm, ⟨11, _⟩ => ⟨S3, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000x32, .bf16⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x32, .bf16⟩
  | .hbm, ⟨26, _⟩ => ⟨S1600000x32, .f32⟩
  | .hbm, ⟨27, _⟩ => ⟨S_, .f32⟩
  | .hbm, ⟨28, _⟩ => ⟨S100000x32, .f32⟩
  | .hbm, ⟨29, _⟩ => ⟨S1600000x1, .i32⟩
  | .hbm, ⟨30, _⟩ => ⟨S100000x32, .f32⟩
  | .hbm, ⟨31, _⟩ => ⟨S1x64, .f32⟩
  | .hbm, ⟨32, _⟩ => ⟨S1x64, .f32⟩
  | .hbm, ⟨33, _⟩ => ⟨S100000x64, .f32⟩
  | .hbm, ⟨34, _⟩ => ⟨S100000x64, .bf16⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .bf16⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S1x64, .f32⟩
  | .hbm, ⟨50, _⟩ => ⟨S1x64, .f32⟩
  | .hbm, ⟨51, _⟩ => ⟨S1x3, .f32⟩
  | .hbm, ⟨52, _⟩ => ⟨S100000x3, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x3, .f32⟩
  | .local _ .vmem, ⟨19, _⟩ => ⟨S1x3, .f32⟩
  | .local _ .vmem, ⟨20, _⟩ => ⟨S5000x3, .f32⟩
  | .local _ .vmem, ⟨21, _⟩ => ⟨S5000x3, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x3 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S3_S1x3 : S3.ShapeCasts S1x3
  shapeCasts_S5000x64_S5000x64 : S5000x64.ShapeCasts S5000x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x3_S5000x3_1_0_0_1_n_n_wf : DotDims.WF S5000x64 S64x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x3.size a ≤ S64x3.size a
  hwx1_6 : ∀ i : grid1.Coords, EltTy.bits .f32 = 32 ∨ (Rect.block (s := S64x3) S64x3.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x3.size a ≤ S1x3.size a
  hwx1_7 : ∀ i : grid1.Coords, EltTy.bits .f32 = 32 ∨ (Rect.block (s := S1x3) S1x3.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x3.size a ≤ S100000x3.size a
  hwx1_8 : ∀ i : grid1.Coords, EltTy.bits .f32 = 32 ∨ (Rect.block (s := S100000x3) S5000x3.size (cc1_transform_8 i) (hinb1_8 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S64x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x3.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S5000x3.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S100000x3 : Shape := ⟨2, ![100000, 3]⟩
abbrev S1x3 : Shape := ⟨2, ![1, 3]⟩

abbrev nBuf : Space → Nat
  | .hbm => 76
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x3, .f32⟩
  | .hbm, ⟨11, _⟩ => ⟨S3, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x32, .f32⟩
  | .hbm, ⟨25, _⟩ => ⟨S_, .f32⟩
  | .hbm, ⟨26, _⟩ => ⟨S100000x32, .f32⟩
  | .hbm, ⟨27, _⟩ => ⟨S1600000x1, .i32⟩
  | .hbm, ⟨28, _⟩ => ⟨S100000x32, .f32⟩
  | .hbm, ⟨29, _⟩ => ⟨S100000x32, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x3, .f32⟩
  | .hbm, ⟨73, _⟩ => ⟨S1x3, .f32⟩
  | .hbm, ⟨74, _⟩ => ⟨S100000x3, .f32⟩
  | .hbm, ⟨75, _⟩ => ⟨S100000x3, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_cst : Ref sig .tc := ⟨.hbm, 62, rfl⟩
abbrev main_call2_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call3_cst : Ref sig .tc := ⟨.hbm, 69, rfl⟩
abbrev main_call3_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x3_S100000x3_1_0_0_1_n_n_wf : DotDims.WF S100000x64 S64x3 S100000x3 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«162150_j16870631538847_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.LibDenseLayers.lean ====
/-
  Dense layers as functions of whole arrays over the extended reals, for any extents, and how a kernel and a host program
  each compute an entry: general lemmas.

  `dense x w b` is `x · w + b`: entry (p, q) is the sum over j of x(p, j) · w(j, q), plus the bias row's entry q.
  `dense2 x₁ x₂ w b` multiplies the rows of `w` below `k₁` with `x₁` and the rows from `k₁` on with `x₂`:
  entry (p, q) is  Σ_{j<k₁} x₁(p, j) · w(j, q)  +  Σ_{j<k₂} x₂(p, j) · w(k₁ + j, q),  plus the bias.
  The kernel computes exactly these (two matrix products into zero accumulators, on the two row ranges of the weight
  block, then the broadcast bias row). The reference concatenates `x₁` and `x₂` along the columns and takes ONE product
  over all k₁ + k₂ columns: a sum over `Fin (k₁ + k₂)` splits into its first k₁ and last k₂ terms — additivity of a
  finite sum over a disjoint union, which holds in any commutative monoid, so no finiteness of the entries is needed.
-/
import proofs.«162150_j16870631538847_2_alg».proof.Proof.LibMatRows
import proofs.«162150_j16870631538847_2_alg».proof.Proof.LibHostBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.LibDenseLayers

open Idealize.ShloMosaic Idealize.ShloMosaic.ValueIdx Cert.LibMatRows Cert.LibHostBroadcast

variable {a k k1 k2 n : ℕ}

/-! ## The layers -/

/-- Entry (p, q) of `x · w + b`. -/
def denseAt (x : (⟨2, ![a, k]⟩ : Shape).Idx → EReal) (w : (⟨2, ![k, n]⟩ : Shape).Idx → EReal)
    (b : (⟨2, ![1, n]⟩ : Shape).Idx → EReal) (p : Fin a) (q : Fin n) : EReal :=
  (∑ j : Fin k, x (ix2 p j) * w (ix2 j q)) + b (ix2 (0 : Fin 1) q)

/-- `x · w + b` as one array. -/
def dense (x : (⟨2, ![a, k]⟩ : Shape).Idx → EReal) (w : (⟨2, ![k, n]⟩ : Shape).Idx → EReal)
    (b : (⟨2, ![1, n]⟩ : Shape).Idx → EReal) : (⟨2, ![a, n]⟩ : Shape).Idx → EReal :=
  fun i => denseAt x w b (i 0) (i 1)

/-- Entry (p, q) of `x₁ · w[0:k₁] + x₂ · w[k₁:k] + b`. -/
def dense2At (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) (p : Fin a) (q : Fin n) : EReal :=
  ((∑ j : Fin k1, x1 (ix2 p j) * w (ix2 (⟨j.val, by have := j.isLt; omega⟩ : Fin k) q))
    + (∑ j : Fin k2, x2 (ix2 p j) * w (ix2 (⟨k1 + j.val, by have := j.isLt; omega⟩ : Fin k) q)))
    + b (ix2 (0 : Fin 1) q)

/-- `x₁ · w[0:k₁] + x₂ · w[k₁:k] + b` as one array. -/
def dense2 (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) : (⟨2, ![a, n]⟩ : Shape).Idx → EReal :=
  fun i => dense2At hk x1 x2 w b (i 0) (i 1)

/-- Two entries of two dense layers agree when the rows, the columns and the bias entries they read agree. -/
theorem denseAt_congr {a' n' : ℕ} {x : (⟨2, ![a, k]⟩ : Shape).Idx → EReal} {w : (⟨2, ![k, n]⟩ : Shape).Idx → EReal}
    {b : (⟨2, ![1, n]⟩ : Shape).Idx → EReal} {x' : (⟨2, ![a', k]⟩ : Shape).Idx → EReal} {w' : (⟨2, ![k, n']⟩ : Shape).Idx → EReal}
    {b' : (⟨2, ![1, n']⟩ : Shape).Idx → EReal} {p : Fin a} {q : Fin n} {p' : Fin a'} {q' : Fin n'}
    (hx : ∀ j : Fin k, x (ix2 p j) = x' (ix2 p' j)) (hw : ∀ j : Fin k, w (ix2 j q) = w' (ix2 j q'))
    (hb : b (ix2 (0 : Fin 1) q) = b' (ix2 (0 : Fin 1) q')) : denseAt x w b p q = denseAt x' w' b' p' q' := by
  unfold denseAt
  rw [hb]
  exact congrArg (· + _) (Finset.sum_congr rfl fun j _ => by rw [hx j, hw j])

/-- The same for a split layer; the weight block may be a window of `K'` rows' worth of a larger array. -/
theorem dense2At_congr {a' n' : ℕ} (hk : k1 + k2 = k) {x1 : (⟨2, ![a, k1]⟩ : Shape).Idx → EReal} {x2 : (⟨2, ![a, k2]⟩ : Shape).Idx → EReal}
    {w : (⟨2, ![k, n]⟩ : Shape).Idx → EReal} {b : (⟨2, ![1, n]⟩ : Shape).Idx → EReal}
    {x1' : (⟨2, ![a', k1]⟩ : Shape).Idx → EReal} {x2' : (⟨2, ![a', k2]⟩ : Shape).Idx → EReal}
    {w' : (⟨2, ![k, n']⟩ : Shape).Idx → EReal} {b' : (⟨2, ![1, n']⟩ : Shape).Idx → EReal}
    {p : Fin a} {q : Fin n} {p' : Fin a'} {q' : Fin n'}
    (hx1 : ∀ j : Fin k1, x1 (ix2 p j) = x1' (ix2 p' j)) (hx2 : ∀ j : Fin k2, x2 (ix2 p j) = x2' (ix2 p' j))
    (hw : ∀ j : Fin k, w (ix2 j q) = w' (ix2 j q'))
    (hb : b (ix2 (0 : Fin 1) q) = b' (ix2 (0 : Fin 1) q')) : dense2At hk x1 x2 w b p q = dense2At hk x1' x2' w' b' p' q' := by
  unfold dense2At
  rw [hb]
  refine congrArg (· + _) (congrArg₂ (· + ·) (Finset.sum_congr rfl fun j _ => ?_) (Finset.sum_congr rfl fun j _ => ?_))
  · rw [hx1 j, hw]
  · rw [hx2 j, hw]

/-! ## What the kernel computes at an entry -/

/-- A product into the zero accumulator plus the broadcast bias row, at (p, q). -/
theorem kernel_dense {d : DotDims ⟨2, ![a, k]⟩ ⟨2, ![k, n]⟩ ⟨2, ![a, n]⟩} (hd : RowsTimesMat d)
    (x : FVec Ideal ⟨2, ![a, k]⟩ .bf16) (w : FVec Ideal ⟨2, ![k, n]⟩ .bf16) (b : FVec Ideal ⟨2, ![1, n]⟩ .f32)
    (hb : (⟨2, ![1, n]⟩ : Shape).Broadcasts ⟨2, ![a, n]⟩) (p : Fin a) (q : Fin n) :
    addf (matmul d none x w (constant (F := Ideal) ⟨2, ![a, n]⟩ .f32 0x00000000#32)) (broadcastTo ⟨2, ![a, n]⟩ b hb) (ix2 p q)
      = denseAt x w b p q :=
  congrArg₂ (· + ·) (matmul_rows hd x w p q) (broadcastTo_1b_ab_apply b hb p q)

/-- Two products into zero accumulators, on the rows of the weight block below `k₁` and from `k₁` on, added, plus the
    broadcast bias row, at (p, q). -/
theorem kernel_dense2 (hk : k1 + k2 = k) {d1 : DotDims ⟨2, ![a, k1]⟩ ⟨2, ![k1, n]⟩ ⟨2, ![a, n]⟩} (hd1 : RowsTimesMat d1)
    {d2 : DotDims ⟨2, ![a, k2]⟩ ⟨2, ![k2, n]⟩ ⟨2, ![a, n]⟩} (hd2 : RowsTimesMat d2)
    (x1 : FVec Ideal ⟨2, ![a, k1]⟩ .bf16) (x2 : FVec Ideal ⟨2, ![a, k2]⟩ .bf16) (w : FVec Ideal ⟨2, ![k, n]⟩ .bf16)
    (b : FVec Ideal ⟨2, ![1, n]⟩ .f32)
    (h1 : (⟨2, ![k, n]⟩ : Shape).Slices ![0, 0] ⟨2, ![k1, n]⟩) (h2 : (⟨2, ![k, n]⟩ : Shape).Slices ![k1, 0] ⟨2, ![k2, n]⟩)
    (hb : (⟨2, ![1, n]⟩ : Shape).Broadcasts ⟨2, ![a, n]⟩) (p : Fin a) (q : Fin n) :
    addf (addf (matmul d1 none x1 (extractStridedSlice ⟨2, ![k1, n]⟩ ![0, 0] w h1) (constant (F := Ideal) ⟨2, ![a, n]⟩ .f32 0x00000000#32))
        (matmul d2 none x2 (extractStridedSlice ⟨2, ![k2, n]⟩ ![k1, 0] w h2) (constant (F := Ideal) ⟨2, ![a, n]⟩ .f32 0x00000000#32)))
      (broadcastTo ⟨2, ![a, n]⟩ b hb) (ix2 p q)
      = dense2At hk x1 x2 w b p q := by
  refine congrArg₂ (· + ·) (congrArg₂ (· + ·) ((matmul_rows hd1 x1 _ p q).trans ?_) ((matmul_rows hd2 x2 _ p q).trans ?_))
    (broadcastTo_1b_ab_apply b hb p q)
  · exact Finset.sum_congr rfl fun j _ => congrArg (x1 (ix2 p j) * ·)
      (slice2_axis0_apply 0 w h1 j q ⟨j.val, by have := j.isLt; omega⟩ (Nat.zero_add _).symm)
  · exact Finset.sum_congr rfl fun j _ => congrArg (x2 (ix2 p j) * ·)
      (slice2_axis0_apply k1 w h2 j q ⟨k1 + j.val, by have := j.isLt; omega⟩ rfl)

/-! ## What the reference computes at an entry -/

/-- The host's product plus the bias vector spread as a row and then down the rows, at (p, q). -/
theorem ref_dense {d : DotDims ⟨2, ![a, k]⟩ ⟨2, ![k, n]⟩ ⟨2, ![a, n]⟩} (hd : RowsTimesMat d)
    (x : FVec Ideal ⟨2, ![a, k]⟩ .f32) (w : FVec Ideal ⟨2, ![k, n]⟩ .f32) (b : FVec Ideal ⟨2, ![1, n]⟩ .f32)
    (h2 : (⟨2, ![1, n]⟩ : Shape).BroadcastsInDim ⟨2, ![a, n]⟩ (![0, 1] : Fin 2 → Fin 2)) (p : Fin a) (q : Fin n) :
    addf (Host.dotGeneral d none x w) (broadcastInDim ⟨2, ![a, n]⟩ (![0, 1] : Fin 2 → Fin 2) h2 b) (ix2 p q) = denseAt x w b p q :=
  congrArg₂ (· + ·) (dotGeneral_rows hd x w p q) (row_to_mat_apply b h2 p q)

/-- A sum over the first `k₁ + k₂` naturals splits into its first `k₁` and its last `k₂` terms. -/
theorem sum_split (hk : k1 + k2 = k) (f : Fin k → EReal) :
    ∑ j : Fin k, f j = (∑ j : Fin k1, f ⟨j.val, by have := j.isLt; omega⟩) + ∑ j : Fin k2, f ⟨k1 + j.val, by have := j.isLt; omega⟩ := by
  subst hk
  exact Fin.sum_univ_add f

/-- The host's ONE product over the concatenation of `x₁` and `x₂` along the columns, plus the bias, at (p, q): the
    split layer's entry. -/
theorem ref_dense2 (hk : k1 + k2 = k) {d : DotDims ⟨2, ![a, k]⟩ ⟨2, ![k, n]⟩ ⟨2, ![a, n]⟩} (hd : RowsTimesMat d)
    (x1 : FVec Ideal ⟨2, ![a, k1]⟩ .f32) (x2 : FVec Ideal ⟨2, ![a, k2]⟩ .f32) (w : FVec Ideal ⟨2, ![k, n]⟩ .f32)
    (b : FVec Ideal ⟨2, ![1, n]⟩ .f32)
    (hc : Shape.Concatenates [(⟨2, ![a, k1]⟩ : Shape), ⟨2, ![a, k2]⟩] ⟨2, ![a, k]⟩ 1)
    (h2 : (⟨2, ![1, n]⟩ : Shape).BroadcastsInDim ⟨2, ![a, n]⟩ (![0, 1] : Fin 2 → Fin 2)) (p : Fin a) (q : Fin n) :
    addf (Host.dotGeneral d none (concatenate ⟨2, ![a, k]⟩ 1 [⟨⟨2, ![a, k1]⟩, x1⟩, ⟨⟨2, ![a, k2]⟩, x2⟩] hc) w)
      (broadcastInDim ⟨2, ![a, n]⟩ (![0, 1] : Fin 2 → Fin 2) h2 b) (ix2 p q) = dense2At hk x1 x2 w b p q := by
  refine congrArg₂ (· + ·) ((dotGeneral_rows hd _ w p q).trans ((sum_split hk _).trans ?_)) (row_to_mat_apply b h2 p q)
  refine congrArg₂ (· + ·) (Finset.sum_congr rfl fun j _ => congrArg (· * _) ?_) (Finset.sum_congr rfl fun j _ => congrArg (· * _) ?_)
  · refine concatenate_pair_apply_left (t := ⟨2, ![a, k]⟩) (1 : Fin 2) x1 x2 hc _ rfl (ix2 p j) fun ax => ?_
    match ax with
    | ⟨0, _⟩ => rfl
    | ⟨1, _⟩ => rfl
  · refine concatenate_pair_apply_right (t := ⟨2, ![a, k]⟩) (1 : Fin 2) x1 x2 hc _ rfl rfl (ix2 p j) (fun ax hax => ?_) ?_
    · match ax with
      | ⟨0, _⟩ => rfl
      | ⟨1, _⟩ => exact absurd rfl hax
    · show j.val + k1 = k1 + j.val
      omega

/-- The bias vector spread as a row is the bias vector reshaped to a row. -/
theorem bias_row_eq (bv : (⟨1, ![n]⟩ : Shape).Idx → EReal)
    (h1 : (⟨1, ![n]⟩ : Shape).BroadcastsInDim ⟨2, ![1, n]⟩ (![1] : Fin 1 → Fin 2))
    (hs : (⟨1, ![n]⟩ : Shape).ShapeCasts ⟨2, ![1, n]⟩) :
    broadcastInDim ⟨2, ![1, n]⟩ (![1] : Fin 1 → Fin 2) h1 bv = shapeCast ⟨2, ![1, n]⟩ bv hs := by
  funext i
  rw [eq_ix2 i]
  exact (vec_to_row_apply bv h1 _ _).trans (shapeCast_a_1a_apply bv hs _ _).symm

end Cert.LibDenseLayers

end
-- ==== Proof.LibMlpRows.lean ====
/-
  A graph-isomorphism layer on one node, over the extended reals, for any extents.

  After the neighbours' rows have been summed into the node's own row, everything a layer does to a node is a function of
  that ONE row `u` (length k): a dense layer `u · wa + ba` (length n), the positive part, a second dense layer
  `· wb + bb` (length n'), the positive part again. `denseRow` is one dense layer on a row, `mlpRow` the two-layer
  network with both positive parts. The "positive part" is the maximum with a given element `z` (the programs' zero),
  kept as a parameter: it is the same element on both sides and its value is never needed.

  A kernel computes entry (p, q) of a block with two matrix products into zero accumulators, each followed by the
  broadcast bias row and the maximum with the splat `z`; a host program computes it with two `dot_general`s, each followed
  by the bias spread down the rows and the maximum with an array holding `z`. Both are `mlpRow` of row p: the products
  are the same finite sums (no reordering, so no finiteness of the entries is needed), and a change of float format is
  the identity on the extended reals.
-/
import proofs.«162150_j16870631538847_2_alg».proof.Proof.LibDenseLayers

noncomputable section

namespace Cert.LibMlpRows

open Idealize.ShloMosaic Idealize.ShloMosaic.ValueIdx Cert.LibMatRows Cert.LibDenseLayers

variable {a k n n' : ℕ}

/-- One row through a dense layer: entry q of `u · w + b`. -/
def denseRow (u : Fin k → EReal) (w : (⟨2, ![k, n]⟩ : Shape).Idx → EReal) (b : (⟨2, ![1, n]⟩ : Shape).Idx → EReal)
    (q : Fin n) : EReal :=
  (∑ j : Fin k, u j * w (ix2 j q)) + b (ix2 (0 : Fin 1) q)

/-- An entry of a dense layer of a matrix is the dense layer of that entry's row. -/
theorem denseAt_eq_denseRow (x : (⟨2, ![a, k]⟩ : Shape).Idx → EReal) (w : (⟨2, ![k, n]⟩ : Shape).Idx → EReal)
    (b : (⟨2, ![1, n]⟩ : Shape).Idx → EReal) (p : Fin a) (q : Fin n) :
    denseAt x w b p q = denseRow (fun j => x (ix2 p j)) w b q := rfl

/-- One row through the two-layer network: max(z, max(z, u · wa + ba) · wb + bb), entry q. -/
def mlpRow (z : EReal) (u : Fin k → EReal) (wa : (⟨2, ![k, n]⟩ : Shape).Idx → EReal) (ba : (⟨2, ![1, n]⟩ : Shape).Idx → EReal)
    (wb : (⟨2, ![n, n']⟩ : Shape).Idx → EReal) (bb : (⟨2, ![1, n']⟩ : Shape).Idx → EReal) (q : Fin n') : EReal :=
  max (denseRow (fun j => max (denseRow u wa ba j) z) wb bb q) z

/-- The network of a row depends on the row only through its entries. -/
theorem mlpRow_congr (z : EReal) {u u' : Fin k → EReal} (h : ∀ j, u j = u' j) (wa : (⟨2, ![k, n]⟩ : Shape).Idx → EReal)
    (ba : (⟨2, ![1, n]⟩ : Shape).Idx → EReal) (wb : (⟨2, ![n, n']⟩ : Shape).Idx → EReal)
    (bb : (⟨2, ![1, n']⟩ : Shape).Idx → EReal) (q : Fin n') : mlpRow z u wa ba wb bb q = mlpRow z u' wa ba wb bb q := by
  rw [show u = u' from funext h]

/-! ## Whole arrays -/

/-- A layer on a whole array of nodes: row p of the result is the network of row p of `x + agg`. -/
def layerArr (z : EReal) (x agg : (⟨2, ![a, k]⟩ : Shape).Idx → EReal) (wa : (⟨2, ![k, n]⟩ : Shape).Idx → EReal)
    (ba : (⟨2, ![1, n]⟩ : Shape).Idx → EReal) (wb : (⟨2, ![n, n']⟩ : Shape).Idx → EReal)
    (bb : (⟨2, ![1, n']⟩ : Shape).Idx → EReal) : (⟨2, ![a, n']⟩ : Shape).Idx → EReal :=
  fun i => mlpRow z (fun j => x (ix2 (i 0) j) + agg (ix2 (i 0) j)) wa ba wb bb (i 1)

/-- A layer followed by a dense output layer (no positive part) on a whole array of nodes. -/
def headArr {n'' : ℕ} (z : EReal) (x agg : (⟨2, ![a, k]⟩ : Shape).Idx → EReal) (wa : (⟨2, ![k, n]⟩ : Shape).Idx → EReal)
    (ba : (⟨2, ![1, n]⟩ : Shape).Idx → EReal) (wb : (⟨2, ![n, n']⟩ : Shape).Idx → EReal)
    (bb : (⟨2, ![1, n']⟩ : Shape).Idx → EReal) (wc : (⟨2, ![n', n'']⟩ : Shape).Idx → EReal)
    (bc : (⟨2, ![1, n'']⟩ : Shape).Idx → EReal) : (⟨2, ![a, n'']⟩ : Shape).Idx → EReal :=
  fun i => denseRow (mlpRow z (fun j => x (ix2 (i 0) j) + agg (ix2 (i 0) j)) wa ba wb bb) wc bc (i 1)

/-! ## A kernel's block -/

/-- A product of a row block with a weight matrix into the zero accumulator, plus the broadcast bias row, the maximum
    with the splat `z`: entry (p, q) is the positive part of the dense layer of row p. The operands reach the product
    through a change of float format, which is the identity. -/
theorem kernel_denseRelu {d : DotDims ⟨2, ![a, k]⟩ ⟨2, ![k, n]⟩ ⟨2, ![a, n]⟩} (hd : RowsTimesMat d)
    (u : FVec Ideal ⟨2, ![a, k]⟩ .bf16) (w : FVec Ideal ⟨2, ![k, n]⟩ .bf16) (b : FVec Ideal ⟨2, ![1, n]⟩ .f32)
    (hb : (⟨2, ![1, n]⟩ : Shape).Broadcasts ⟨2, ![a, n]⟩) (z : Ideal .f32) (p : Fin a) (q : Fin n) :
    maximumf (addf (matmul d none u w (constant (F := Ideal) ⟨2, ![a, n]⟩ .f32 0x00000000#32)) (broadcastTo ⟨2, ![a, n]⟩ b hb))
        (broadcast ⟨2, ![a, n]⟩ z) (ix2 p q)
      = max (denseRow (fun j => u (ix2 p j)) w b q) z :=
  congrArg (fun y => max y z) (kernel_dense hd u w b hb p q)

/-- Two such stages in a row: entry (p, q) of the block is the two-layer network of row p. -/
theorem kernel_mlp {d1 : DotDims ⟨2, ![a, k]⟩ ⟨2, ![k, n]⟩ ⟨2, ![a, n]⟩} (h1 : RowsTimesMat d1)
    {d2 : DotDims ⟨2, ![a, n]⟩ ⟨2, ![n, n']⟩ ⟨2, ![a, n']⟩} (h2 : RowsTimesMat d2)
    (u : FVec Ideal ⟨2, ![a, k]⟩ .f32) (wa : FVec Ideal ⟨2, ![k, n]⟩ .f32) (ba : FVec Ideal ⟨2, ![1, n]⟩ .f32)
    (wb : FVec Ideal ⟨2, ![n, n']⟩ .f32) (bb : FVec Ideal ⟨2, ![1, n']⟩ .f32)
    (hba : (⟨2, ![1, n]⟩ : Shape).Broadcasts ⟨2, ![a, n]⟩) (hbb : (⟨2, ![1, n']⟩ : Shape).Broadcasts ⟨2, ![a, n']⟩)
    (hlt : FTy.bf16.bits < FTy.f32.bits) (z : Ideal .f32) (p : Fin a) (q : Fin n') :
    maximumf (addf (matmul d2 none
          (truncf .bf16 (maximumf (addf (matmul d1 none (truncf .bf16 u hlt) (truncf .bf16 wa hlt)
              (constant (F := Ideal) ⟨2, ![a, n]⟩ .f32 0x00000000#32)) (broadcastTo ⟨2, ![a, n]⟩ ba hba))
            (broadcast ⟨2, ![a, n]⟩ z)) hlt)
          (truncf .bf16 wb hlt) (constant (F := Ideal) ⟨2, ![a, n']⟩ .f32 0x00000000#32)) (broadcastTo ⟨2, ![a, n']⟩ bb hbb))
        (broadcast ⟨2, ![a, n']⟩ z) (ix2 p q)
      = mlpRow z (fun j => u (ix2 p j)) wa ba wb bb q := by
  refine (kernel_denseRelu h2 _ _ bb hbb z p q).trans ?_
  unfold mlpRow denseRow
  refine congrArg (fun y => max (y + _) z) (Finset.sum_congr rfl fun j _ => congrArg (· * _) ?_)
  exact kernel_denseRelu h1 (truncf .bf16 u hlt) (truncf .bf16 wa hlt) ba hba z p j

/-! ## A host program's array -/

/-- The host's product, the bias spread as a row and down the rows, the maximum with an array: entry (p, q). -/
theorem host_denseRelu {d : DotDims ⟨2, ![a, k]⟩ ⟨2, ![k, n]⟩ ⟨2, ![a, n]⟩} (hd : RowsTimesMat d)
    (x : FVec Ideal ⟨2, ![a, k]⟩ .f32) (w : FVec Ideal ⟨2, ![k, n]⟩ .f32) (b : FVec Ideal ⟨2, ![1, n]⟩ .f32)
    (h2 : (⟨2, ![1, n]⟩ : Shape).BroadcastsInDim ⟨2, ![a, n]⟩ (![0, 1] : Fin 2 → Fin 2))
    (Z : FVec Ideal ⟨2, ![a, n]⟩ .f32) (p : Fin a) (q : Fin n) :
    maximumf (addf (Host.dotGeneral d none x w) (broadcastInDim ⟨2, ![a, n]⟩ (![0, 1] : Fin 2 → Fin 2) h2 b)) Z (ix2 p q)
      = max (denseRow (fun j => x (ix2 p j)) w b q) (Z (ix2 p q)) :=
  congrArg (fun y => max y (Z (ix2 p q))) (ref_dense hd x w b h2 p q)

/-- Two such stages in a row, against arrays that hold `z` everywhere: entry (p, q) is the two-layer network of row p. -/
theorem host_mlp {d1 : DotDims ⟨2, ![a, k]⟩ ⟨2, ![k, n]⟩ ⟨2, ![a, n]⟩} (h1 : RowsTimesMat d1)
    {d2 : DotDims ⟨2, ![a, n]⟩ ⟨2, ![n, n']⟩ ⟨2, ![a, n']⟩} (h2 : RowsTimesMat d2)
    (u : FVec Ideal ⟨2, ![a, k]⟩ .f32) (wa : FVec Ideal ⟨2, ![k, n]⟩ .f32) (ba : FVec Ideal ⟨2, ![1, n]⟩ .f32)
    (wb : FVec Ideal ⟨2, ![n, n']⟩ .f32) (bb : FVec Ideal ⟨2, ![1, n']⟩ .f32)
    (hba : (⟨2, ![1, n]⟩ : Shape).BroadcastsInDim ⟨2, ![a, n]⟩ (![0, 1] : Fin 2 → Fin 2))
    (hbb : (⟨2, ![1, n']⟩ : Shape).BroadcastsInDim ⟨2, ![a, n']⟩ (![0, 1] : Fin 2 → Fin 2))
    (Z1 : FVec Ideal ⟨2, ![a, n]⟩ .f32) (Z2 : FVec Ideal ⟨2, ![a, n']⟩ .f32) (z : EReal)
    (hZ1 : ∀ i, Z1 i = z) (hZ2 : ∀ i, Z2 i = z) (p : Fin a) (q : Fin n') :
    maximumf (addf (Host.dotGeneral d2 none
          (maximumf (addf (Host.dotGeneral d1 none u wa) (broadcastInDim ⟨2, ![a, n]⟩ (![0, 1] : Fin 2 → Fin 2) hba ba)) Z1) wb)
        (broadcastInDim ⟨2, ![a, n']⟩ (![0, 1] : Fin 2 → Fin 2) hbb bb)) Z2 (ix2 p q)
      = mlpRow z (fun j => u (ix2 p j)) wa ba wb bb q := by
  refine (host_denseRelu h2 _ wb bb hbb Z2 p q).trans ?_
  rw [hZ2]
  unfold mlpRow denseRow
  refine congrArg (fun y => max (y + _) z) (Finset.sum_congr rfl fun j _ => congrArg (· * _) ?_)
  exact (host_denseRelu h1 u wa ba hba Z1 p j).trans (by rw [hZ1]; rfl)

end Cert.LibMlpRows

end
-- ==== Proof.LibPlainRecord.lean ====
/-
  A dimension record between `[a, k]`, `[k, n]` and `[a, n]` whose six lists are those of a plain matrix product
  (contract the left operand's axis 1 with the right operand's axis 0, keep the left operand's axis 0 and the right
  operand's axis 1, no batch axis) says what a plain product says: one contracted axis of extent `k`, the left operand
  read at (the result's row, the contracted coordinate), the right operand at (the contracted coordinate, the result's
  column). A literal record discharges the six list equations by `rfl`.
-/
import proofs.«162150_j16870631538847_2_alg».proof.Proof.LibMatRows

noncomputable section

namespace Cert.LibPlainRecord

open Idealize.ShloMosaic Idealize.ShloMosaic.ValueIdx Cert.LibMatRows

variable {a k n : ℕ} (d : DotDims ⟨2, ![a, k]⟩ ⟨2, ![k, n]⟩ ⟨2, ![a, n]⟩)

/-- A coordinate of an index read at two spellings of one position. -/
theorem coord_val_congr {s : Shape} (i : s.Idx) (p q : ℕ) (hp : p < s.rank) (hq : q < s.rank) (h : p = q) :
    (i ⟨p, hp⟩).val = (i ⟨q, hq⟩).val := by
  subst h; rfl

/-- A record with a plain product's six lists is a plain product: the contraction shape is the one axis of extent `k`;
    on the kept axes the operand index reads the result index (no batch axis comes before them), on the contracted
    axes the contraction index. -/
theorem rowsTimesMat_of_lists (h1 : d.lhsContracting = [1]) (h2 : d.rhsContracting = [0]) (h3 : d.lhsNonContracting = [0])
    (h4 : d.rhsNonContracting = [1]) (h5 : d.lhsBatch = []) (h6 : d.rhsBatch = []) : RowsTimesMat d where
  rank := d.rank_contr.trans (by rw [h1]; rfl)
  size := by
    have hp : 0 < d.lhsContracting.length := by rw [h1]; exact Nat.one_pos
    rw [d.size_contr 0 hp, List.getElem_of_eq h1 hp]
    rfl
  l0 := fun i q => by
    have hb : (0 : Fin 2) ∉ d.lhsBatch := by rw [h5]; exact List.not_mem_nil
    have hn : (0 : Fin 2) ∈ d.lhsNonContracting := by rw [h3]; exact List.mem_singleton.mpr rfl
    unfold DotDims.lhsIdx
    rw [dif_neg hb, dif_pos hn]
    simp only [Fin.val_cast]
    exact coord_val_congr i _ _ _ _ (by rw [h5, h3]; rfl)
  l1 := fun i q => d.lhsIdx_val_of_single h1 i q
  r0 := fun i q => d.rhsIdx_val_of_single h2 i q
  r1 := fun i q => by
    have hb : (1 : Fin 2) ∉ d.rhsBatch := by rw [h6]; exact List.not_mem_nil
    have hn : (1 : Fin 2) ∈ d.rhsNonContracting := by rw [h4]; exact List.mem_singleton.mpr rfl
    unfold DotDims.rhsIdx
    rw [dif_neg hb, dif_pos hn]
    simp only [Fin.val_cast]
    exact coord_val_congr i _ _ _ _ (by rw [h5, h3, h4]; rfl)

end Cert.LibPlainRecord

end
-- ==== Proof.RefStages.lean ====
/-
  The reference, read on the extended reals, as ONE function of its arguments.

  Neighbour sums: `neighbours32 h e` / `neighbours64 h e` add, into row dst(e') of a zero array, row src(e') of `h` for
  every edge e' — the reference's own gather and scatter-add over its own index arrays, kept closed: nothing below needs
  to know which rows an entry sums, only that both programs apply the same operations to the same arrays.
  `hiddenLayer` is the first layer's output: row p is the two-layer network (32 → 64 → 64, with both positive parts) of row
  p of (features + neighbour sums). `whole` is the result: row p is the output layer (64 → 3) of the second two-layer
  network (64 → 64 → 64) of row p of (hiddenLayer + its neighbour sums).
  The reference's own stages are these functions: each `dot_general` is the plain sum over the shared axis, each bias is
  spread as a row and down the rows, each positive part is the maximum with an array holding the zero everywhere.
-/
import proofs.«162150_j16870631538847_2_alg».proof.Proof.Gen.ReferenceIdeal.Read
import proofs.«162150_j16870631538847_2_alg».proof.Proof.LibMlpRows
import proofs.«162150_j16870631538847_2_alg».proof.Proof.LibPlainRecord

noncomputable section

namespace Cert.ReferenceIdeal.Stages

open Cert.ReferenceIdeal Cert.ReferenceIdeal.Gen Cert.ReferenceIdeal.Read
open Idealize.ShloMosaic Idealize.ShloMosaic.ValueIdx Cert.LibMatRows Cert.LibDenseLayers Cert.LibMlpRows

/-- The programs' zero: the f32 word 0, read on the extended reals. -/
abbrev zeroF : EReal := Scalar.ofBits (F := Ideal) .f32 0x00000000#32

theorem rows_32_64 : RowsTimesMat dot_S100000x32_S32x64_S100000x64_1_0_0_1_n_n :=
  Cert.LibPlainRecord.rowsTimesMat_of_lists _ rfl rfl rfl rfl rfl rfl
theorem rows_64_64 : RowsTimesMat dot_S100000x64_S64x64_S100000x64_1_0_0_1_n_n :=
  Cert.LibPlainRecord.rowsTimesMat_of_lists _ rfl rfl rfl rfl rfl rfl
theorem rows_64_3 : RowsTimesMat dot_S100000x64_S64x3_S100000x3_1_0_0_1_n_n :=
  Cert.LibPlainRecord.rowsTimesMat_of_lists _ rfl rfl rfl rfl rfl rfl

/-- Neighbour sums of an array of 32-wide rows. -/
def neighbours32 (h : (⟨S100000x32, .f32⟩ : BufTy).Contents (Elt Ideal)) (e : (⟨S2x1600000, .i32⟩ : BufTy).Contents (Elt Ideal)) : (⟨S100000x32, .f32⟩ : BufTy).Contents (Elt Ideal) :=
  Host.scatterAdd (F := Ideal) (φ := .f32) scatter_S100000x32_S1600000x1_S1600000x32_1_0_0_1 (val_main_v11 (F := Ideal)) (val_main_v12 (F := Ideal) e)
    (Host.gather gather_S100000x32_S1600000x1_S1600000x32_1_0_n_n_0_1_132 h (val_main_v9 (F := Ideal) e))

/-- Neighbour sums of an array of 64-wide rows. -/
def neighbours64 (h : (⟨S100000x64, .f32⟩ : BufTy).Contents (Elt Ideal)) (e : (⟨S2x1600000, .i32⟩ : BufTy).Contents (Elt Ideal)) : (⟨S100000x64, .f32⟩ : BufTy).Contents (Elt Ideal) :=
  Host.scatterAdd (F := Ideal) (φ := .f32) scatter_S100000x64_S1600000x1_S1600000x64_1_0_0_1 (val_main_v32 (F := Ideal)) (val_main_v33 (F := Ideal) e)
    (Host.gather gather_S100000x64_S1600000x1_S1600000x64_1_0_n_n_0_1_164 h (val_main_v30 (F := Ideal) e))

/-- The first layer's output. -/
def hiddenLayer (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) : (⟨S100000x64, .f32⟩ : BufTy).Contents (Elt Ideal) :=
  layerArr zeroF x0 (neighbours32 x0 x1) x2 (val_main_v16 (F := Ideal) x3) x4 (val_main_v21 (F := Ideal) x5)

/-- The result. -/
def whole (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x3, .f32⟩ : BufTy).Contents (Elt Ideal)) (x11 : (⟨S3, .f32⟩ : BufTy).Contents (Elt Ideal)) : (⟨S100000x3, .f32⟩ : BufTy).Contents (Elt Ideal) :=
  headArr zeroF (hiddenLayer x0 x1 x2 x3 x4 x5) (neighbours64 (hiddenLayer x0 x1 x2 x3 x4 x5) x1) x6 (val_main_v37 (F := Ideal) x7) x8 (val_main_v42 (F := Ideal) x9)
    x10 (val_main_v47 (F := Ideal) x11)

/-- The four arrays the reference takes its positive parts against hold the zero everywhere. -/
theorem zeros0 (i : S100000x64.Idx) : val_main_call0_v0 (F := Ideal) i = zeroF := (val_main_call0_v0_apply i).trans rfl
theorem zeros1 (i : S100000x64.Idx) : val_main_call1_v0 (F := Ideal) i = zeroF := (val_main_call1_v0_apply i).trans rfl
theorem zeros2 (i : S100000x64.Idx) : val_main_call2_v0 (F := Ideal) i = zeroF := (val_main_call2_v0_apply i).trans rfl
theorem zeros3 (i : S100000x64.Idx) : val_main_call3_v0 (F := Ideal) i = zeroF := (val_main_call3_v0_apply i).trans rfl

/-- The reference's first-layer stage is `hiddenLayer`. -/
theorem stage_hidden (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) : val_main_v24 (F := Ideal) x0 x1 x2 x3 x4 x5 = hiddenLayer x0 x1 x2 x3 x4 x5 := by
  funext i
  obtain ⟨p, q, rfl⟩ : ∃ (p : Fin 100000) (q : Fin 64), i = ix2 p q := ⟨i 0, i 1, eq_ix2 i⟩
  exact host_mlp rows_32_64 rows_64_64 (addf x0 (neighbours32 x0 x1)) x2 (val_main_v16 (F := Ideal) x3) x4 (val_main_v21 (F := Ideal) x5)
    bcast_S1x64_S100000x64_0_1 bcast_S1x64_S100000x64_0_1 (val_main_call0_v0 (F := Ideal)) (val_main_call1_v0 (F := Ideal)) zeroF zeros0 zeros1 p q

/-- The reference's second neighbour-sum stage is the neighbour sums of its first-layer stage. -/
theorem stage_neighbours64 (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v34 (F := Ideal) x0 x1 x2 x3 x4 x5 = neighbours64 (val_main_v24 (F := Ideal) x0 x1 x2 x3 x4 x5) x1 := rfl

/-- The reference's result stage is `whole`. -/
theorem stage_whole (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x3, .f32⟩ : BufTy).Contents (Elt Ideal)) (x11 : (⟨S3, .f32⟩ : BufTy).Contents (Elt Ideal)) : val_main_v49 (F := Ideal) x0 x1 x2 x3 x4 x5 x6 x7 x8 x9 x10 x11 = whole x0 x1 x2 x3 x4 x5 x6 x7 x8 x9 x10 x11 := by
  funext i
  obtain ⟨p, q, rfl⟩ : ∃ (p : Fin 100000) (q : Fin 3), i = ix2 p q := ⟨i 0, i 1, eq_ix2 i⟩
  refine (ref_dense rows_64_3 (val_main_v45 (F := Ideal) x0 x1 x2 x3 x4 x5 x6 x7 x8 x9) x10 (val_main_v47 (F := Ideal) x11)
    bcast_S1x3_S100000x3_0_1 p q).trans ?_
  unfold denseAt whole headArr denseRow
  refine congrArg (· + _) (Finset.sum_congr rfl fun j _ => congrArg (· * _) ?_)
  refine (host_mlp rows_64_64 rows_64_64 (addf (val_main_v24 (F := Ideal) x0 x1 x2 x3 x4 x5) (val_main_v34 (F := Ideal) x0 x1 x2 x3 x4 x5)) x6
    (val_main_v37 (F := Ideal) x7) x8 (val_main_v42 (F := Ideal) x9) bcast_S1x64_S100000x64_0_1 bcast_S1x64_S100000x64_0_1
    (val_main_call2_v0 (F := Ideal)) (val_main_call3_v0 (F := Ideal)) zeroF zeros2 zeros3 p j).trans ?_
  rw [stage_neighbours64, stage_hidden]
  rfl

end Cert.ReferenceIdeal.Stages

end
-- ==== Proof.KernelBody.lean ====
/-
  What the two kernel bodies compute at an entry of their output block, on the extended reals.

  Layer 1's body, at row r and column q of its [5000, 64] block: the two-layer network (32 → 64 → 64, both positive
  parts) of row r of the sum of its two [5000, 32] input blocks (the node features and the neighbour sums).
  Layer 2's body, at row r and column q of its [5000, 3] block: the output layer (64 → 3, no positive part) of the
  two-layer network (64 → 64 → 64) of row r of the sum of its two [5000, 64] input blocks.
  Each matrix product is a plain product into a zero accumulator: the sum over the shared axis.
-/
import proofs.«162150_j16870631538847_2_alg».proof.Proof.Gen.KernelIdeal.Skeleton
import proofs.«162150_j16870631538847_2_alg».proof.Proof.LibMlpRows
import proofs.«162150_j16870631538847_2_alg».proof.Proof.LibPlainRecord
import Idealize.ShloMosaic.Lib.Pipeline.Value

noncomputable section

namespace Cert.KernelIdeal.Body

open Cert.KernelIdeal Cert.KernelIdeal.Gen
open Idealize.ShloMosaic Idealize.ShloMosaic.ValueIdx Cert.LibMatRows Cert.LibDenseLayers Cert.LibMlpRows

/-- The programs' zero: the f32 word 0, read on the extended reals. -/
abbrev zeroF : EReal := Scalar.ofBits (F := Ideal) .f32 0x00000000#32

theorem rows_32_64 : RowsTimesMat dot_S5000x32_S32x64_S5000x64_1_0_0_1_n_n :=
  Cert.LibPlainRecord.rowsTimesMat_of_lists _ rfl rfl rfl rfl rfl rfl
theorem rows_64_64 : RowsTimesMat dot_S5000x64_S64x64_S5000x64_1_0_0_1_n_n :=
  Cert.LibPlainRecord.rowsTimesMat_of_lists _ rfl rfl rfl rfl rfl rfl
theorem rows_64_3 : RowsTimesMat dot_S5000x64_S64x3_S5000x3_1_0_0_1_n_n :=
  Cert.LibPlainRecord.rowsTimesMat_of_lists _ rfl rfl rfl rfl rfl rfl

/-- Layer 1's block at (r, q). -/
theorem layer1_entry (x0 x1 : Vec Ideal S5000x32 .f32) (x2 : Vec Ideal S32x64 .f32) (x3 : Vec Ideal S1x64 .f32)
    (x4 : Vec Ideal S64x64 .f32) (x5 : Vec Ideal S1x64 .f32) (r : Fin 5000) (q : Fin 64) :
    k0_pay1 x0 x1 x2 x3 x4 x5 (ix2 r q)
      = mlpRow zeroF (fun j => x0 (ix2 r j) + x1 (ix2 r j)) x2 x3 x4 x5 q := by
  unfold k0_pay1
  simp only [shapeCast_self]
  exact kernel_mlp rows_32_64 rows_64_64 (addf x0 x1) x2 x3 x4 x5 _ _ _ zeroF r q

/-- Layer 2's block at (r, q). -/
theorem layer2_entry (x0 x1 : Vec Ideal S5000x64 .f32) (x2 : Vec Ideal S64x64 .f32) (x3 : Vec Ideal S1x64 .f32)
    (x4 : Vec Ideal S64x64 .f32) (x5 : Vec Ideal S1x64 .f32) (x6 : Vec Ideal S64x3 .f32) (x7 : Vec Ideal S1x3 .f32)
    (r : Fin 5000) (q : Fin 3) :
    k1_pay1 x0 x1 x2 x3 x4 x5 x6 x7 (ix2 r q)
      = denseRow (mlpRow zeroF (fun j => x0 (ix2 r j) + x1 (ix2 r j)) x2 x3 x4 x5) x6 x7 q := by
  unfold k1_pay1
  simp only [shapeCast_self]
  refine (kernel_dense rows_64_3 _ _ x7 _ r q).trans ?_
  unfold denseAt denseRow
  refine congrArg (· + _) (Finset.sum_congr rfl fun j _ => congrArg (· * _) ?_)
  exact kernel_mlp rows_64_64 rows_64_64 (addf x0 x1) x2 x3 x4 x5 _ _ _ zeroF r j

end Cert.KernelIdeal.Body

end
-- ==== Proof.Region0.lean ====
import proofs.«162150_j16870631538847_2_alg».proof.Proof.Gen.KernelIdeal.Frame
import proofs.«162150_j16870631538847_2_alg».proof.Proof.KernelBody

set_option maxRecDepth 16384

noncomputable section

/-
  The first launch's output array as one function of the arrays the launch finds.

  The grid has 20 points; point t reads rows 5000·t … 5000·t + 4999 of the node features and of the neighbour sums, reads
  the two weight matrices and the two bias rows whole, and writes rows 5000·t … 5000·t + 4999 of the output. So what
  point t writes back is block t of ONE array: row p of it is the two-layer network of row p of (features + sums). The
  20 blocks cover the 100000 rows (row p lies in block p / 5000), hence the output array after the launch is that array.
-/
namespace Cert.KernelIdeal.Region0

open Cert.KernelIdeal Cert.KernelIdeal.Gen Cert.KernelIdeal.Body
open Idealize.ShloMosaic Idealize.ShloMosaic.TcCoe Idealize.ShloMosaic.ValueIdx Idealize.SL.Sem Cert.LibMlpRows
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two blocked inputs move with the output along the rows; every window sits
    at column block 0; the four whole windows stay at block (0, 0); the output's row block is below 20. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 19 :=
  (by decide +kernel : ∀ t : Fin grid0.N, _)

/-- Every row block is some point's. -/
theorem index_onto : ∀ b : Fin 20, ∃ t : Fin cfg0.N, win0_6.index t = ![b.val, 0] :=
  (by decide +kernel : ∀ b : Fin 20, ∃ t : Fin grid0.N, win0_6.index t = ![b.val, 0])

/-- A window that is fetched whole holds its array. -/
theorem whole2 (c : Dev nD) (t : Fin cfg0.N) : iblk0 V c 2 t = V c main_arg2 := by
  obtain ⟨-, -, -, -, e0, e1, -⟩ := index_facts t
  funext y
  show V c main_arg2 (((cfg0.win 2).blk t).view.emb y) = V c main_arg2 y
  refine congrArg (V c main_arg2) (funext fun a => Fin.ext ?_)
  match a with
  | ⟨0, _⟩ => show win0_2.index t (0 : Fin 2) * 32 + 1 * (y 0).val = (y 0).val; omega
  | ⟨1, _⟩ => show win0_2.index t (1 : Fin 2) * 64 + 1 * (y 1).val = (y 1).val; omega
theorem whole3 (c : Dev nD) (t : Fin cfg0.N) : iblk0 V c 3 t = V c main_v16 := by
  obtain ⟨-, -, -, -, -, -, e0, e1, -⟩ := index_facts t
  funext y
  show V c main_v16 (((cfg0.win 3).blk t).view.emb y) = V c main_v16 y
  refine congrArg (V c main_v16) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega
theorem whole4 (c : Dev nD) (t : Fin cfg0.N) : iblk0 V c 4 t = V c main_arg4 := by
  obtain ⟨-, -, -, -, -, -, -, -, e0, e1, -⟩ := index_facts t
  funext y
  show V c main_arg4 (((cfg0.win 4).blk t).view.emb y) = V c main_arg4 y
  refine congrArg (V c main_arg4) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega
theorem whole5 (c : Dev nD) (t : Fin cfg0.N) : iblk0 V c 5 t = V c main_v17 := by
  obtain ⟨-, -, -, -, -, -, -, -, -, -, e0, e1, -⟩ := index_facts t
  funext y
  show V c main_v17 (((cfg0.win 5).blk t).view.emb y) = V c main_v17 y
  refine congrArg (V c main_v17) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The array the launch leaves: row p is the network of row p of (features + neighbour sums). -/
abbrev hidden1 (c : Dev nD) : S100000x64.Idx → EReal :=
  layerArr zeroF (V c main_arg0) (V c main_v15) (V c main_arg2) (V c main_v16) (V c main_arg4) (V c main_v17)

/-- What point t writes back is block t of that array. -/
theorem flushed6_eq (c : Dev nD) (t : Fin cfg0.N) :
    (dat0 V c).flushed 6 t = ((cfg0.win 6).blk t).view.read (Elt Ideal) (hidden1 V c) := by
  show (cfg0.win 6).cut (grid0.coords t) ((dat0 V c).after 6 t) = _
  rw [after0_6]
  unfold out0_6
  rw [View.canon_unit_zero origin]
  simp only [View.ld_unit_zero (S := S5000x32) origin, View.ld_unit_zero (S := S32x64) origin,
    View.ld_unit_zero (S := S1x64) origin, View.ld_unit_zero (S := S64x64) origin]
  rw [whole2, whole3, whole4, whole5]
  obtain ⟨e00, e01, e10, e11, -, -, -, -, -, -, -, -, e61, -⟩ := index_facts t
  funext y
  obtain ⟨r, q, rfl⟩ : ∃ (r : Fin 5000) (q : Fin 64), y = ix2 r q := ⟨y 0, y 1, eq_ix2 y⟩
  show k0_pay1 (iblk0 V c 0 t) (iblk0 V c 1 t) (V c main_arg2) (V c main_v16) (V c main_arg4) (V c main_v17) (ix2 r q)
    = hidden1 V c (((cfg0.win 6).blk t).view.emb (ix2 r q))
  refine (layer1_entry _ _ _ _ _ _ r q).trans ?_
  have hq : (((cfg0.win 6).blk t).view.emb (ix2 r q)) 1 = q :=
    Fin.ext (by show win0_6.index t (1 : Fin 2) * 64 + 1 * q.val = q.val; omega)
  show _ = mlpRow zeroF _ (V c main_arg2) (V c main_v16) (V c main_arg4) (V c main_v17) ((((cfg0.win 6).blk t).view.emb (ix2 r q)) 1)
  rw [hq]
  refine mlpRow_congr zeroF (fun j => ?_) _ _ _ _ q
  have h0 : ((cfg0.win 0).blk t).view.emb (ix2 r j) = ix2 ((((cfg0.win 6).blk t).view.emb (ix2 r q)) 0) j := by
    funext a; apply Fin.ext
    match a with
    | ⟨0, _⟩ => show win0_0.index t (0 : Fin 2) * 5000 + 1 * r.val = win0_6.index t (0 : Fin 2) * 5000 + 1 * r.val; omega
    | ⟨1, _⟩ => show win0_0.index t (1 : Fin 2) * 32 + 1 * j.val = j.val; omega
  have h1 : ((cfg0.win 1).blk t).view.emb (ix2 r j) = ix2 ((((cfg0.win 6).blk t).view.emb (ix2 r q)) 0) j := by
    funext a; apply Fin.ext
    match a with
    | ⟨0, _⟩ => show win0_1.index t (0 : Fin 2) * 5000 + 1 * r.val = win0_6.index t (0 : Fin 2) * 5000 + 1 * r.val; omega
    | ⟨1, _⟩ => show win0_1.index t (1 : Fin 2) * 32 + 1 * j.val = j.val; omega
  exact congrArg₂ (fun (u v : EReal) => u + v) (congrArg (V c main_arg0) h0) (congrArg (V c main_v15) h1)

/-- An index of the output array is in point t's block iff each coordinate is in the block's range. -/
theorem mem_block (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v18).slice (win0_6.rect t)).set ↔ _
  rw [View.set_slice_whole, Rect.mem_set_unit]
  exact Iff.rfl

/-- Every index of the output array is written by some point: row p by point p / 5000. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := index_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE OUTPUT ARRAY after the first launch. -/
theorem final (c : Dev nD) : (dat0 V c).arrAt 6 cfg0.N = hidden1 V c :=
  (dat0 V c).arrAt_eq_of_cover 6 (hidden1 V c) (fun t _ => flushed6_eq V c t) (covered)

end Cert.KernelIdeal.Region0

end
-- ==== Proof.Region1.lean ====
import proofs.«162150_j16870631538847_2_alg».proof.Proof.Gen.KernelIdeal.Frame
import proofs.«162150_j16870631538847_2_alg».proof.Proof.KernelBody

set_option maxRecDepth 16384

noncomputable section

/-
  The second launch's output array as one function of the arrays the launch finds.

  The grid has 20 points; point t reads rows 5000·t … 5000·t + 4999 of the first layer's output and of its neighbour sums,
  reads the three weight matrices and the three bias rows whole, and writes rows 5000·t … 5000·t + 4999 of the [100000, 3]
  result. What point t writes back is block t of ONE array: row p of it is the output layer of the two-layer network of
  row p of (first layer's output + sums). The 20 blocks cover the 100000 rows, so the result array is that array.
-/
namespace Cert.KernelIdeal.Region1

open Cert.KernelIdeal Cert.KernelIdeal.Gen Cert.KernelIdeal.Body
open Idealize.ShloMosaic Idealize.ShloMosaic.TcCoe Idealize.ShloMosaic.ValueIdx Idealize.SL.Sem Cert.LibMlpRows
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two blocked inputs move with the output along the rows; every window sits
    at column block 0; the six whole windows stay at block (0, 0); the output's row block is below 20. -/
theorem index_facts : ∀ t : Fin cfg1.N,
    win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (1 : Fin 2) = 0 ∧ win1_8.index t (0 : Fin 2) ≤ 19 :=
  (by decide +kernel : ∀ t : Fin grid1.N, _)

/-- Every row block is some point's. -/
theorem index_onto : ∀ b : Fin 20, ∃ t : Fin cfg1.N, win1_8.index t = ![b.val, 0] :=
  (by decide +kernel : ∀ b : Fin 20, ∃ t : Fin grid1.N, win1_8.index t = ![b.val, 0])

/-- A window that is fetched whole holds its array. -/
theorem whole2 (c : Dev nD) (t : Fin cfg1.N) : iblk1 V c 2 t = V c main_arg6 := by
  obtain ⟨-, -, -, -, e0, e1, -⟩ := index_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega
theorem whole3 (c : Dev nD) (t : Fin cfg1.N) : iblk1 V c 3 t = V c main_v31 := by
  obtain ⟨-, -, -, -, -, -, e0, e1, -⟩ := index_facts t
  funext y
  show V c main_v31 (((cfg1.win 3).blk t).view.emb y) = V c main_v31 y
  refine congrArg (V c main_v31) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega
theorem whole4 (c : Dev nD) (t : Fin cfg1.N) : iblk1 V c 4 t = V c main_arg8 := by
  obtain ⟨-, -, -, -, -, -, -, -, e0, e1, -⟩ := index_facts t
  funext y
  show V c main_arg8 (((cfg1.win 4).blk t).view.emb y) = V c main_arg8 y
  refine congrArg (V c main_arg8) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega
theorem whole5 (c : Dev nD) (t : Fin cfg1.N) : iblk1 V c 5 t = V c main_v32 := by
  obtain ⟨-, -, -, -, -, -, -, -, -, -, e0, e1, -⟩ := index_facts t
  funext y
  show V c main_v32 (((cfg1.win 5).blk t).view.emb y) = V c main_v32 y
  refine congrArg (V c main_v32) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega
theorem whole6 (c : Dev nD) (t : Fin cfg1.N) : iblk1 V c 6 t = V c main_arg10 := by
  obtain ⟨-, -, -, -, -, -, -, -, -, -, -, -, e0, e1, -⟩ := index_facts t
  funext y
  show V c main_arg10 (((cfg1.win 6).blk t).view.emb y) = V c main_arg10 y
  refine congrArg (V c main_arg10) (funext fun a => Fin.ext ?_)
  match a with
  | ⟨0, _⟩ => show win1_6.index t (0 : Fin 2) * 64 + 1 * (y 0).val = (y 0).val; omega
  | ⟨1, _⟩ => show win1_6.index t (1 : Fin 2) * 3 + 1 * (y 1).val = (y 1).val; omega
theorem whole7 (c : Dev nD) (t : Fin cfg1.N) : iblk1 V c 7 t = V c main_v33 := by
  obtain ⟨-, -, -, -, -, -, -, -, -, -, -, -, -, -, e0, e1, -⟩ := index_facts t
  funext y
  show V c main_v33 (((cfg1.win 7).blk t).view.emb y) = V c main_v33 y
  refine congrArg (V c main_v33) (funext fun a => Fin.ext ?_)
  match a with
  | ⟨0, _⟩ => show win1_7.index t (0 : Fin 2) * 1 + 1 * (y 0).val = (y 0).val; omega
  | ⟨1, _⟩ => show win1_7.index t (1 : Fin 2) * 3 + 1 * (y 1).val = (y 1).val; omega

/-- The array the launch leaves: row p is the output layer of the network of row p of (first layer's output + sums). -/
abbrev result (c : Dev nD) : S100000x3.Idx → EReal :=
  headArr zeroF (V c main_v18) (V c main_v30) (V c main_arg6) (V c main_v31) (V c main_arg8) (V c main_v32) (V c main_arg10) (V c main_v33)

/-- What point t writes back is block t of that array. -/
theorem flushed8_eq (c : Dev nD) (t : Fin cfg1.N) :
    (dat1 V c).flushed 8 t = ((cfg1.win 8).blk t).view.read (Elt Ideal) (result V c) := by
  show (cfg1.win 8).cut (grid1.coords t) ((dat1 V c).after 8 t) = _
  rw [after1_8]
  unfold out1_8
  rw [View.canon_unit_zero origin]
  simp only [View.ld_unit_zero (S := S5000x64) origin, View.ld_unit_zero (S := S64x64) origin,
    View.ld_unit_zero (S := S1x64) origin, View.ld_unit_zero (S := S64x3) origin, View.ld_unit_zero (S := S1x3) origin]
  rw [whole2, whole3, whole4, whole5, whole6, whole7]
  obtain ⟨e00, e01, e10, e11, -, -, -, -, -, -, -, -, -, -, -, -, e81, -⟩ := index_facts t
  funext y
  obtain ⟨r, q, rfl⟩ : ∃ (r : Fin 5000) (q : Fin 3), y = ix2 r q := ⟨y 0, y 1, eq_ix2 y⟩
  show k1_pay1 (iblk1 V c 0 t) (iblk1 V c 1 t) (V c main_arg6) (V c main_v31) (V c main_arg8) (V c main_v32) (V c main_arg10) (V c main_v33) (ix2 r q)
    = result V c (((cfg1.win 8).blk t).view.emb (ix2 r q))
  refine (layer2_entry _ _ _ _ _ _ _ _ r q).trans ?_
  have hq : (((cfg1.win 8).blk t).view.emb (ix2 r q)) 1 = q :=
    Fin.ext (by show win1_8.index t (1 : Fin 2) * 3 + 1 * q.val = q.val; omega)
  show _ = denseRow (mlpRow zeroF _ (V c main_arg6) (V c main_v31) (V c main_arg8) (V c main_v32)) (V c main_arg10) (V c main_v33)
    ((((cfg1.win 8).blk t).view.emb (ix2 r q)) 1)
  rw [hq]
  refine congrArg (fun f => denseRow f (V c main_arg10) (V c main_v33) q) (funext fun q' => ?_)
  refine mlpRow_congr zeroF (fun j => ?_) _ _ _ _ q'
  have h0 : ((cfg1.win 0).blk t).view.emb (ix2 r j) = ix2 ((((cfg1.win 8).blk t).view.emb (ix2 r q)) 0) j := by
    funext a; apply Fin.ext
    match a with
    | ⟨0, _⟩ => show win1_0.index t (0 : Fin 2) * 5000 + 1 * r.val = win1_8.index t (0 : Fin 2) * 5000 + 1 * r.val; omega
    | ⟨1, _⟩ => show win1_0.index t (1 : Fin 2) * 64 + 1 * j.val = j.val; omega
  have h1 : ((cfg1.win 1).blk t).view.emb (ix2 r j) = ix2 ((((cfg1.win 8).blk t).view.emb (ix2 r q)) 0) j := by
    funext a; apply Fin.ext
    match a with
    | ⟨0, _⟩ => show win1_1.index t (0 : Fin 2) * 5000 + 1 * r.val = win1_8.index t (0 : Fin 2) * 5000 + 1 * r.val; omega
    | ⟨1, _⟩ => show win1_1.index t (1 : Fin 2) * 64 + 1 * j.val = j.val; omega
  exact congrArg₂ (fun (u v : EReal) => u + v) (congrArg (V c main_v18) h0) (congrArg (V c main_v30) h1)

/-- An index of the result array is in point t's block iff each coordinate is in the block's range. -/
theorem mem_block (t : Fin cfg1.N) (i : S100000x3.Idx) :
    i ∈ ((cfg1.win 8).blk t).view.set ↔ ∀ a : Fin 2, win1_8.index t a * S5000x3.size a ≤ (i a).val ∧ (i a).val < win1_8.index t a * S5000x3.size a + S5000x3.size a := by
  show i ∈ ((View.whole main_v34).slice (win1_8.rect t)).set ↔ _
  rw [View.set_slice_whole, Rect.mem_set_unit]
  exact Iff.rfl

/-- Every index of the result array is written by some point: row p by point p / 5000. -/
theorem covered (i : S100000x3.Idx) :
    ∃ t : Fin cfg1.N, (cfg1.win 8).flush t = true ∧ i ∈ ((cfg1.win 8).blk t).view.set := by
  have hi0 : (i 0).val < 100000 := (i 0).isLt
  have hi1 : (i 1).val < 3 := (i 1).isLt
  obtain ⟨t, ht⟩ := index_onto ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_block]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 3 ≤ (i 1).val ∧ (i 1).val < win1_8.index t (1 : Fin 2) * 3 + 3; omega

/-- THE RESULT ARRAY after the second launch. -/
theorem final (c : Dev nD) : (dat1 V c).arrAt 8 cfg1.N = result V c :=
  (dat1 V c).arrAt_eq_of_cover 8 (result V c) (fun t _ => flushed8_eq V c t) (covered)

end Cert.KernelIdeal.Region1

end
-- ==== Proof.KernelRun.lean ====
/-
  The idealized kernel's run with its result named.

  @main is four segments: the host operations before the first launch, the first launch, the host operations between the
  launches, the second launch. The contents of every unscoped buffer at each boundary are a fold through these segments;
  at the return they are `W4`. Every weakly fair execution terminates without a fault in a state whose unscoped buffers
  hold `W4`: so the result buffer holds `W4` at the result, and each argument, which no segment writes, holds what it
  held at the launch.
-/
import proofs.«162150_j16870631538847_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_W4 : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.KernelValue.lean ====
/-
  The idealized kernel's result array as the ONE function of its arguments that the reference computes.

  The buffer contents at the four segment boundaries of @main are a fold from the launch memory. Read back:
  * at the first launch's entry, the features and the first layer's weights are the arguments, the two bias rows are the
    bias arguments laid out as rows, and the second operand is the neighbour sums of the features — the same gather and
    scatter-add over the same index arrays as the reference's, a change of float format around the gather being the
    identity on the extended reals;
  * the first launch leaves its output array at the first layer's output `hidden`;
  * at the second launch's entry, the first operand is that array, the second its neighbour sums, the rest the second
    layer's and the output layer's weights and bias rows;
  * the second launch leaves the result array at `whole` of the twelve arguments.
-/
import proofs.«162150_j16870631538847_2_alg».proof.Proof.Region0
import proofs.«162150_j16870631538847_2_alg».proof.Proof.Region1
import proofs.«162150_j16870631538847_2_alg».proof.Proof.RefStages
import proofs.«162150_j16870631538847_2_alg».proof.Proof.KernelRun
import Idealize.ShloMosaic.Lib.StableHlo.Run

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.ValueIdx Idealize.SL.Sem Idealize.ShloMosaic.StableHlo
open Cert.LibMlpRows Cert.LibDenseLayers
open Cert.ReferenceIdeal.Stages (neighbours32 neighbours64 hiddenLayer whole)

variable (m : (ℓ : Loc nD τ sig) → Buf (Elt Ideal) ℓ) (ρ : Dev nD → PrngReg)

/-! ## The first launch's entry -/

theorem entry0_features (c : Dev nD) : V1 m ρ c main_arg0 = (m ((c : Thread nD τ).loc main_arg0)) := by
  show StableHlo.after hostOps0 (W0 m ρ c) (Proc.devRef .tc main_arg0) = _
  after_results
theorem entry0_wa (c : Dev nD) : V1 m ρ c main_arg2 = (m ((c : Thread nD τ).loc main_arg2)) := by
  show StableHlo.after hostOps0 (W0 m ρ c) (Proc.devRef .tc main_arg2) = _
  after_results
theorem entry0_wb (c : Dev nD) : V1 m ρ c main_arg4 = (m ((c : Thread nD τ).loc main_arg4)) := by
  show StableHlo.after hostOps0 (W0 m ρ c) (Proc.devRef .tc main_arg4) = _
  after_results
theorem entry0_ba (c : Dev nD) :
    (V1 m ρ c main_v16 : S1x64.Idx → EReal) = Cert.ReferenceIdeal.Read.val_main_v16 (F := Ideal) (m ((c : Thread nD τ).loc main_arg3)) := by
  show StableHlo.after hostOps0 (W0 m ρ c) (Proc.devRef .tc main_v16) = _
  after_results
  exact (bias_row_eq _ _ _).symm
theorem entry0_bb (c : Dev nD) :
    (V1 m ρ c main_v17 : S1x64.Idx → EReal) = Cert.ReferenceIdeal.Read.val_main_v21 (F := Ideal) (m ((c : Thread nD τ).loc main_arg5)) := by
  show StableHlo.after hostOps0 (W0 m ρ c) (Proc.devRef .tc main_v17) = _
  after_results
  exact (bias_row_eq _ _ _).symm
theorem entry0_sums (c : Dev nD) :
    (V1 m ρ c main_v15 : S100000x32.Idx → EReal) = neighbours32 (m ((c : Thread nD τ).loc main_arg0)) (m ((c : Thread nD τ).loc main_arg1)) := by
  show StableHlo.after hostOps0 (W0 m ρ c) (Proc.devRef .tc main_v15) = _
  after_results
  rfl

/-- The first launch's output array is the first layer's output. -/
theorem exit0 (c : Dev nD) :
    (W2 m ρ c (Proc.devRef .tc main_v18) : S100000x64.Idx → EReal)
      = hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ((Region0.final (V1 m ρ) c).trans ?_)
  unfold Region0.hidden1 hiddenLayer
  rw [entry0_features, entry0_wa, entry0_wb, entry0_ba, entry0_bb, entry0_sums]

/-! ## Between the launches: buffers the first launch does not touch hold what the host operations before it left -/

theorem mid_edges_src (c : Dev nD) :
    (W2 m ρ c (Proc.devRef .tc main_v1) : S1600000.Idx → BitVec 32) = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results
  rfl
theorem mid_edges_dst (c : Dev nD) :
    (W2 m ρ c (Proc.devRef .tc main_v3) : S1600000.Idx → BitVec 32) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results
  rfl
theorem mid_arg6 (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results
theorem mid_arg7 (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results
theorem mid_arg8 (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results
theorem mid_arg9 (c : Dev nD) : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results
theorem mid_arg10 (c : Dev nD) : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results
theorem mid_arg11 (c : Dev nD) : W2 m ρ c (Proc.devRef .tc main_arg11) = (m ((c : Thread nD τ).loc main_arg11)) := by
  refine (W2_of_ne m ρ c main_arg11 (by decide)).trans ?_
  show StableHlo.after hostOps0 (W0 m ρ c) (Proc.devRef .tc main_arg11) = _
  after_results

/-! ## The second launch's entry -/

theorem entry1_hidden (c : Dev nD) : (V3 m ρ c main_v18 : S100000x64.Idx → EReal) = hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v18) = _
  after_results
  exact exit0 m ρ c
theorem entry1_sums (c : Dev nD) :
    (V3 m ρ c main_v30 : S100000x64.Idx → EReal) = neighbours64 (hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) := by
  show StableHlo.after hostOps1 (W2 m ρ c) (Proc.devRef .tc main_v30) = _
  after_results_simp
  rw [mid_edges_src, mid_edges_dst, exit0]
  rfl
theorem entry1_arg6 (c : Dev nD) : V3 m ρ c main_arg6 = (m ((c : Thread nD τ).loc main_arg6)) := by
  show StableHlo.after hostOps1 (W2 m ρ c) (Proc.devRef .tc main_arg6) = _
  after_results
  exact mid_arg6 m ρ c
theorem entry1_arg8 (c : Dev nD) : V3 m ρ c main_arg8 = (m ((c : Thread nD τ).loc main_arg8)) := by
  show StableHlo.after hostOps1 (W2 m ρ c) (Proc.devRef .tc main_arg8) = _
  after_results
  exact mid_arg8 m ρ c
theorem entry1_arg10 (c : Dev nD) : V3 m ρ c main_arg10 = (m ((c : Thread nD τ).loc main_arg10)) := by
  show StableHlo.after hostOps1 (W2 m ρ c) (Proc.devRef .tc main_arg10) = _
  after_results
  exact mid_arg10 m ρ c
theorem entry1_v31 (c : Dev nD) :
    (V3 m ρ c main_v31 : S1x64.Idx → EReal) = Cert.ReferenceIdeal.Read.val_main_v37 (F := Ideal) (m ((c : Thread nD τ).loc main_arg7)) := by
  show StableHlo.after hostOps1 (W2 m ρ c) (Proc.devRef .tc main_v31) = _
  after_results
  rw [mid_arg7]
  exact (bias_row_eq _ _ _).symm
theorem entry1_v32 (c : Dev nD) :
    (V3 m ρ c main_v32 : S1x64.Idx → EReal) = Cert.ReferenceIdeal.Read.val_main_v42 (F := Ideal) (m ((c : Thread nD τ).loc main_arg9)) := by
  show StableHlo.after hostOps1 (W2 m ρ c) (Proc.devRef .tc main_v32) = _
  after_results
  rw [mid_arg9]
  exact (bias_row_eq _ _ _).symm
theorem entry1_v33 (c : Dev nD) :
    (V3 m ρ c main_v33 : S1x3.Idx → EReal) = Cert.ReferenceIdeal.Read.val_main_v47 (F := Ideal) (m ((c : Thread nD τ).loc main_arg11)) := by
  show StableHlo.after hostOps1 (W2 m ρ c) (Proc.devRef .tc main_v33) = _
  after_results
  rw [mid_arg11]
  exact (bias_row_eq _ _ _).symm

/-! ## The result -/

/-- The second launch leaves the result array at the reference's function of the twelve arguments. -/
theorem result_eq (c : Dev nD) :
    (W4 m ρ c (Proc.devRef .tc main_v34) : S100000x3.Idx → EReal) = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 8).trans ((Region1.final (V3 m ρ) c).trans ?_)
  unfold Region1.result whole
  rw [entry1_hidden, entry1_sums, entry1_arg6, entry1_v31, entry1_arg8, entry1_v32, entry1_arg10, entry1_v33]

/-- Every weakly fair execution of the idealized kernel terminates, nothing faulting, with its result at that function
    of the arguments and the arguments as launched. -/
theorem run : θ_run defs (onTc (τ := τ) (main (F := Ideal))) ⟨m, fun _ => 0, ρ⟩ (fun r => ∀ c : Dev nD,
      r.2.mem ((c.tc : Thread nD τ).loc main_v34) = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩) (Cert.KernelIdeal.RunValue.run_W4 m ρ)

end Cert.KernelIdeal.Value

end
-- ==== Proof.lean ====
/-
  A two-layer graph-isomorphism network on 100000 nodes and 1600000 edges, with a linear output layer: a kernel that
  runs each layer's dense part in a launch over 20 blocks of 5000 nodes against a reference written with plain array
  operations, equal on the extended reals.

  For every node p, both programs compute
      out(p, ·) = (N₂(h(p, ·) + Σ_{e : dst e = p} h(src e, ·))) · Wfc + bfc,
      h(p, ·)   =  N₁(x(p, ·) + Σ_{e : dst e = p} x(src e, ·)),
  where Nᵢ(u) = max(0, max(0, u · Wᵢa + bᵢa) · Wᵢb + bᵢb) acts on one row. The neighbour sums are the SAME gather and
  scatter-add over the same index arrays in both programs (the kernel rounds the gathered rows to a narrower float format
  and back, which is the identity on the extended reals), so they are carried as one closed function. Each dense part
  depends on one row only; the kernel's matrix products into zero accumulators and the reference's `dot_general`s are the
  same finite sums over the shared axis, in the same order of factors, so no law that needs finite entries is used and the
  precondition is never opened. The kernel's 20 row blocks tile the 100000 rows, so each launch's output array is one
  whole-array function of the arrays it finds.

  The frames of the two kernel programs are the generated ones; the reference's frame is its generated run with the
  result dropped; the idealization rewrote no operation, so what it must preserve is nothing.
-/
import proofs.«162150_j16870631538847_2_alg».proof.Defs
import proofs.«162150_j16870631538847_2_alg».proof.Proof.Gen.Kernel
import proofs.«162150_j16870631538847_2_alg».proof.Proof.Gen.Kernel.Frame
import proofs.«162150_j16870631538847_2_alg».proof.Proof.Gen.KernelIdeal
import proofs.«162150_j16870631538847_2_alg».proof.Proof.Gen.KernelIdeal.Frame
import proofs.«162150_j16870631538847_2_alg».proof.Proof.Gen.ReferenceIdeal
import proofs.«162150_j16870631538847_2_alg».proof.Proof.Gen.ReferenceIdeal.Run
import proofs.«162150_j16870631538847_2_alg».proof.Proof.Gen.ReferenceIdeal.Read
import proofs.«162150_j16870631538847_2_alg».proof.Proof.Gen.Pre_finite_inputs
import proofs.«162150_j16870631538847_2_alg».proof.Proof.RefStages
import proofs.«162150_j16870631538847_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at ONE function of the arguments: the kernel's by reading its two launches and the
    host operations around them, the reference's by reading its stages; the memories agree on the arguments. -/
theorem algebraic : Cert.algebraic_KernelIdeal_ReferenceIdeal := by
  intro m ρ m' ρ' _ hagree
  refine ⟨fun c => Cert.ReferenceIdeal.Stages.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v49_eq, Cert.ReferenceIdeal.Stages.stage_whole,
    e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
